-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x300000 : Shape := ⟨2, ![2, 300000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg10 : FVec F S128x128 .f32) (main_arg11 : FVec F S128x128 .f32) (main_arg12 : FVec F S128 .f32) (main_arg13 : FVec F S128x128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : FVec F S100000x128 .f32) (main_arg2 : IVec S2x300000 32) (main_arg3 : IVec S2x300000 32) (main_arg4 : IVec S2x300000 32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S2x300000 : Shape := ⟨2, ![2, 300000]⟩
abbrev S128x128 : Shape := ⟨2, ![128, 128]⟩
abbrev S128 : Shape := ⟨1, ![128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 118
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x300000, .i32⟩
  | .hbm, ⟨3, _⟩ => ⟨S2x300000, .i32⟩
  | .hbm, ⟨4, _⟩ => ⟨S2x300000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S1x300000, .i32⟩
  | .hbm, ⟨15, _⟩ => ⟨S300000, .i32⟩
  | .hbm, ⟨16, _⟩ => ⟨S1x300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i1⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S300000x1, .i32⟩
  | .hbm, ⟨26, _⟩ => ⟨S300000x128, .f32⟩
  | .hbm, ⟨27, _⟩ => ⟨S_, .f32⟩
  | .hbm, ⟨28, _⟩ => ⟨S100000x128, .f32⟩
  | .hbm, ⟨29, _⟩ => ⟨S300000x1, .i32⟩
  | .hbm, ⟨30, _⟩ => ⟨S100000x128, .f32⟩
  | .hbm, ⟨31, _⟩ => ⟨S_, .f32⟩
  | .hbm, ⟨32, _⟩ => ⟨S300000x1, .f32⟩
  | .hbm, ⟨33, _⟩ => ⟨S_, .f32⟩
  | .hbm, ⟨34, _⟩ => ⟨S100000x1, .f32⟩
  | .hbm, ⟨35, _⟩ => ⟨S300000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S1x300000, .i32⟩
  | .hbm, ⟨44, _⟩ => ⟨S300000, .i32⟩
  | .hbm, ⟨45, _⟩ => ⟨S1x300000, .i32⟩
  | .hbm, ⟨46, _⟩ => ⟨S300000, .i32⟩
  | .hbm, ⟨47, _⟩ => ⟨S_, .i32⟩
  | .hbm, ⟨48, _⟩ => ⟨S300000, .i32⟩
  | .hbm, ⟨49, _⟩ => ⟨S300000, .i1⟩
  | .hbm, ⟨50, _⟩ => ⟨S_, .i32⟩
  | .hbm, ⟨51, _⟩ => ⟨S300000, .i32⟩
  | .hbm, ⟨52, _⟩ => ⟨S300000, .i32⟩
  | .hbm, ⟨53, _⟩ => ⟨S300000, .i32⟩
  | .hbm, ⟨54, _⟩ => ⟨S300000x1, .i32⟩
  | .hbm, ⟨55, _⟩ => ⟨S300000x128, .f32⟩
  | .hbm, ⟨56, _⟩ => ⟨S_, .f32⟩
  | .hbm, ⟨57, _⟩ => ⟨S100000x128, .f32⟩
  | .hbm, ⟨58, _⟩ => ⟨S300000x1, .i32⟩
  | .hbm, ⟨59, _⟩ => ⟨S100000x128, .f32⟩
  | .hbm, ⟨60, _⟩ => ⟨S_, .f32⟩
  | .hbm, ⟨61, _⟩ => ⟨S300000x1, .f32⟩
  | .hbm, ⟨62, _⟩ => ⟨S_, .f32⟩
  | .hbm, ⟨63, _⟩ => ⟨S100000x1, .f32⟩
  | .hbm, ⟨64, _⟩ => ⟨S300000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S1x300000, .i32⟩
  | .hbm, ⟨73, _⟩ => ⟨S300000, .i32⟩
  | .hbm, ⟨74, _⟩ => ⟨S1x300000, .i32⟩
  | .hbm, ⟨75, _⟩ => ⟨S300000, .i32⟩
  | .hbm, ⟨76, _⟩ => ⟨S_, .i32⟩
  | .hbm, ⟨77, _⟩ => ⟨S300000, .i32⟩
  | .hbm, ⟨78, _⟩ => ⟨S300000, .i1⟩
  | .hbm, ⟨79, _⟩ => ⟨S_, .i32⟩
  | .hbm, ⟨80, _⟩ => ⟨S300000, .i32⟩
  | .hbm, ⟨81, _⟩ => ⟨S300000, .i32⟩
  | .hbm, ⟨82, _⟩ => ⟨S300000, .i32⟩
  | .hbm, ⟨83, _⟩ => ⟨S300000x1, .i32⟩
  | .hbm, ⟨84, _⟩ => ⟨S300000x128, .f32⟩
  | .hbm, ⟨85, _⟩ => ⟨S_, .f32⟩
  | .hbm, ⟨86, _⟩ => ⟨S100000x128, .f32⟩
  | .hbm, ⟨87, _⟩ => ⟨S300000x1, .i32⟩
  | .hbm, ⟨88, _⟩ => ⟨S100000x128, .f32⟩
  | .hbm, ⟨89, _⟩ => ⟨S_, .f32⟩
  | .hbm, ⟨90, _⟩ => ⟨S300000x1, .f32⟩
  | .hbm, ⟨91, _⟩ => ⟨S_, .f32⟩
  | .hbm, ⟨92, _⟩ => ⟨S100000x1, .f32⟩
  | .hbm, ⟨93, _⟩ => ⟨S300000x1, .i32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | .hbm, ⟨101, _⟩ => ⟨S128x128, .f32⟩
  | .hbm, ⟨102, _⟩ => ⟨S128x128, .bf16⟩
  | .hbm, ⟨103, _⟩ => ⟨S128x128, .f32⟩
  | .hbm, ⟨104, _⟩ => ⟨S128x128, .bf16⟩
  | .hbm, ⟨105, _⟩ => ⟨S128x128, .f32⟩
  | .hbm, ⟨106, _⟩ => ⟨S128x128, .f32⟩
  | .hbm, ⟨107, _⟩ => ⟨S128x128, .f32⟩
  | .hbm, ⟨108, _⟩ => ⟨S128x128, .bf16⟩
  | .hbm, ⟨109, _⟩ => ⟨S128, .f32⟩
  | .hbm, ⟨110, _⟩ => ⟨S1x128, .f32⟩
  | .hbm, ⟨111, _⟩ => ⟨S128x128, .f32⟩
  | .hbm, ⟨112, _⟩ => ⟨S128x128, .bf16⟩
  | .hbm, ⟨113, _⟩ => ⟨S128x128, .f32⟩
  | .hbm, ⟨114, _⟩ => ⟨S128x128, .bf16⟩
  | .hbm, ⟨115, _⟩ => ⟨S1x128, .f32⟩
  | .hbm, ⟨116, _⟩ => ⟨S100000x128, .f32⟩
  | .hbm, ⟨117, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S4000x128, .f32⟩
  | .local _ .vmem, ⟨21, _⟩ => ⟨S4000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S300000x1 : S_.BroadcastsInDim S300000x1 (![] : Fin 0 → Fin S300000x1.rank)
  bcast_S_S100000x1 : S_.BroadcastsInDim S100000x1 (![] : Fin 0 → Fin S100000x1.rank)
  transposes_S128x128_S128x128_1_0 : S128x128.Transposes [1, 0] S128x128
  bitsLt_bf16_f32 : FTy.bits .bf16 < FTy.bits .f32
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  scatter_S100000x1_S300000x1_S300000x1_1_0_0_1_wf : ScatterDims.WF S100000x1 S300000x1 S300000x1 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000x1_S300000x1_S300000x1_1_0_0_1 : ScatterDims S100000x1 S300000x1 S300000x1 where
  updateWindowDims := [1]
  insertedWindowDims := [0]
  scatterDimsToOperandDims := [0]
  indexVectorDim := 1
  wf := scatter_S100000x1_S300000x1_S300000x1_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v67) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v73) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v75) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v81) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v57) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v77) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x300000 : Shape := ⟨2, ![2, 300000]⟩
abbrev S128x128 : Shape := ⟨2, ![128, 128]⟩
abbrev S128 : Shape := ⟨1, ![128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S100000x1 : Shape := ⟨2, ![100000, 1]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x300000, .i32⟩
  | .hbm, ⟨3, _⟩ => ⟨S2x300000, .i32⟩
  | .hbm, ⟨4, _⟩ => ⟨S2x300000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S1x300000, .i32⟩
  | .hbm, ⟨15, _⟩ => ⟨S300000, .i32⟩
  | .hbm, ⟨16, _⟩ => ⟨S1x300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i1⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S300000x1, .i32⟩
  | .hbm, ⟨26, _⟩ => ⟨S300000x128, .f32⟩
  | .hbm, ⟨27, _⟩ => ⟨S_, .f32⟩
  | .hbm, ⟨28, _⟩ => ⟨S100000x128, .f32⟩
  | .hbm, ⟨29, _⟩ => ⟨S300000x1, .i32⟩
  | .hbm, ⟨30, _⟩ => ⟨S100000x128, .f32⟩
  | .hbm, ⟨31, _⟩ => ⟨S_, .f32⟩
  | .hbm, ⟨32, _⟩ => ⟨S300000x1, .f32⟩
  | .hbm, ⟨33, _⟩ => ⟨S_, .f32⟩
  | .hbm, ⟨34, _⟩ => ⟨S100000x1, .f32⟩
  | .hbm, ⟨35, _⟩ => ⟨S300000x1, .i32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S1x300000, .i32⟩
  | .hbm, ⟨51, _⟩ => ⟨S300000, .i32⟩
  | .hbm, ⟨52, _⟩ => ⟨S1x300000, .i32⟩
  | .hbm, ⟨53, _⟩ => ⟨S300000, .i32⟩
  | .hbm, ⟨54, _⟩ => ⟨S_, .i32⟩
  | .hbm, ⟨55, _⟩ => ⟨S300000, .i32⟩
  | .hbm, ⟨56, _⟩ => ⟨S300000, .i1⟩
  | .hbm, ⟨57, _⟩ => ⟨S_, .i32⟩
  | .hbm, ⟨58, _⟩ => ⟨S300000, .i32⟩
  | .hbm, ⟨59, _⟩ => ⟨S300000, .i32⟩
  | .hbm, ⟨60, _⟩ => ⟨S300000, .i32⟩
  | .hbm, ⟨61, _⟩ => ⟨S300000x1, .i32⟩
  | .hbm, ⟨62, _⟩ => ⟨S300000x128, .f32⟩
  | .hbm, ⟨63, _⟩ => ⟨S_, .f32⟩
  | .hbm, ⟨64, _⟩ => ⟨S100000x128, .f32⟩
  | .hbm, ⟨65, _⟩ => ⟨S300000x1, .i32⟩
  | .hbm, ⟨66, _⟩ => ⟨S100000x128, .f32⟩
  | .hbm, ⟨67, _⟩ => ⟨S_, .f32⟩
  | .hbm, ⟨68, _⟩ => ⟨S300000x1, .f32⟩
  | .hbm, ⟨69, _⟩ => ⟨S_, .f32⟩
  | .hbm, ⟨70, _⟩ => ⟨S100000x1, .f32⟩
  | .hbm, ⟨71, _⟩ => ⟨S300000x1, .i32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S1x300000, .i32⟩
  | .hbm, ⟨87, _⟩ => ⟨S300000, .i32⟩
  | .hbm, ⟨88, _⟩ => ⟨S1x300000, .i32⟩
  | .hbm, ⟨89, _⟩ => ⟨S300000, .i32⟩
  | .hbm, ⟨90, _⟩ => ⟨S_, .i32⟩
  | .hbm, ⟨91, _⟩ => ⟨S300000, .i32⟩
  | .hbm, ⟨92, _⟩ => ⟨S300000, .i1⟩
  | .hbm, ⟨93, _⟩ => ⟨S_, .i32⟩
  | .hbm, ⟨94, _⟩ => ⟨S300000, .i32⟩
  | .hbm, ⟨95, _⟩ => ⟨S300000, .i32⟩
  | .hbm, ⟨96, _⟩ => ⟨S300000, .i32⟩
  | .hbm, ⟨97, _⟩ => ⟨S300000x1, .i32⟩
  | .hbm, ⟨98, _⟩ => ⟨S300000x128, .f32⟩
  | .hbm, ⟨99, _⟩ => ⟨S_, .f32⟩
  | .hbm, ⟨100, _⟩ => ⟨S100000x128, .f32⟩
  | .hbm, ⟨101, _⟩ => ⟨S300000x1, .i32⟩
  | .hbm, ⟨102, _⟩ => ⟨S100000x128, .f32⟩
  | .hbm, ⟨103, _⟩ => ⟨S_, .f32⟩
  | .hbm, ⟨104, _⟩ => ⟨S300000x1, .f32⟩
  | .hbm, ⟨105, _⟩ => ⟨S_, .f32⟩
  | .hbm, ⟨106, _⟩ => ⟨S100000x1, .f32⟩
  | .hbm, ⟨107, _⟩ => ⟨S300000x1, .i32⟩
  | .hbm, ⟨108, _⟩ => ⟨S100000x1, .f32⟩
  | .hbm, ⟨109, _⟩ => ⟨S_, .f32⟩
  | .hbm, ⟨110, _⟩ => ⟨S100000x1, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | .hbm, ⟨119, _⟩ => ⟨S128x128, .f32⟩
  | .hbm, ⟨120, _⟩ => ⟨S100000x128, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S300000x1 : S_.BroadcastsInDim S300000x1 (![] : Fin 0 → Fin S300000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S300000x1_S300000x128_1_0_n_n_0_1_1128_wf : GatherDims.WF S100000x128 S300000x1 S300000x128 [1] [0] [] [0] [] 1 ![1, 128]
  scatter_S100000x128_S300000x1_S300000x128_1_0_0_1_wf : ScatterDims.WF S100000x128 S300000x1 S300000x128 [1] [0] [0] 1
  scatter_S100000x1_S300000x1_S300000x1_1_0_0_1_wf : ScatterDims.WF S100000x1 S300000x1 S300000x1 [1] [0] [0] 1
  dot_S100000x128_S128x128_S100000x128_1_0_0_1_n_n_wf : DotDims.WF S100000x128 S128x128 S100000x128 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000x1_S300000x1_S300000x1_1_0_0_1 : ScatterDims S100000x1 S300000x1 S300000x1 where
  updateWindowDims := [1]
  insertedWindowDims := [0]
  scatterDimsToOperandDims := [0]
  indexVectorDim := 1
  wf := scatter_S100000x1_S300000x1_S300000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunOut.lean ====
/-
  The idealized kernel program's run with every buffer of the TensorCore named at its end.

  The program is a stretch of host operations followed by two kernel regions. Its run ends with every unscoped
  buffer at the contents the segments leave one after the other: the host stretch's results, then each region's
  arrays at what its write-backs leave. The frame claim keeps only the argument arrays of this; here every
  unscoped buffer is kept, so that the two result arrays can be read.
-/
import proofs.«134629_j74766790689426_2_alg».proof.Proof.Gen.KernelIdeal.Frame

set_option maxRecDepth 16384

noncomputable section

namespace Cert.Sage.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in its final state every unscoped buffer of a
    core holds what the last segment boundary's contents say. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

end Cert.Sage.RunOut

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.Spec.lean ====
/-
  The layer as a function of arrays, entry by entry, on the extended reals.

  For one edge type the aggregated neighbourhood of node r is the row S(r, ·) of feature sums scaled by one
  number of the node, and the layer applies a 128 x 128 weight to it: entry (r, q) is the sum over k of
  (S(r, k) * s(r)) * W(k, q). A node's own features x(r, ·) pass through a second weight, and a bias row is added.
  A service node receives two edge types, an endpoint node one.

  Two spellings of the same number meet here. One divides every feature sum by d = max(count, 1); the other
  multiplies it by 1 / d. Since d is at least one it is not zero, and on the extended reals both are the product
  with the inverse of d, whatever the feature sum is. One spelling adds the two weights applied to x before the
  product, the other adds the two products; the distributive law needs the entries of x and of the two weights to
  be real numbers, and holds then. Everything else is a reordering of a sum of six terms.
-/
import Idealize.ShloMosaic.PureOps.Ideal
import Idealize.ShloMosaic.PureOps.Ideal.Laws
import Idealize.ShloMosaic.Lib.ValueIdx
import proofs.«134629_j74766790689426_2_alg».proof.Proof.LibRealSums

noncomputable section

open scoped BigOperators

namespace Cert.Sage

open Idealize.ShloMosaic Idealize.ShloMosaic.ValueIdx Cert.LibRealSums

/-- An a x b array of extended reals. -/
abbrev Mat (a b : ℕ) := (⟨2, ![a, b]⟩ : Shape).Idx → EReal

variable {n : ℕ}

/-- The scaled feature sums of node r through a weight, at output channel q. -/
def agg (S : Mat n 128) (s : Mat n 1) (W : Mat 128 128) (r : Fin n) (q : Fin 128) : EReal :=
  ∑ k : Fin 128, (S (ix2 r k) * s (ix2 r (0 : Fin 1))) * W (ix2 k q)

/-- The node's own features through a weight, at output channel q. -/
def lin (x : Mat n 128) (W : Mat 128 128) (r : Fin n) (q : Fin 128) : EReal :=
  ∑ k : Fin 128, x (ix2 r k) * W (ix2 k q)

/-- A service node's output entry: two aggregated edge types, the node's own features through one weight, one
    bias row. -/
def svcE (S1 S2 : Mat n 128) (s1 s2 : Mat n 1) (x : Mat n 128) (W1 W2 W3 : Mat 128 128) (b : Mat 1 128)
    (r : Fin n) (q : Fin 128) : EReal :=
  ((agg S1 s1 W1 r q + agg S2 s2 W2 r q) + lin x W3 r q) + b (ix2 (0 : Fin 1) q)

/-- An endpoint node's output entry: one aggregated edge type, the node's own features, the bias row. -/
def epE (S : Mat n 128) (s : Mat n 1) (x : Mat n 128) (W1 W2 : Mat 128 128) (b : Mat 1 128)
    (r : Fin n) (q : Fin 128) : EReal :=
  (agg S s W1 r q + lin x W2 r q) + b (ix2 (0 : Fin 1) q)

/-- The service output as an array. -/
def svc (S1 S2 : Mat n 128) (s1 s2 : Mat n 1) (x : Mat n 128) (W1 W2 W3 : Mat 128 128) (b : Mat 1 128) : Mat n 128 :=
  fun j => svcE S1 S2 s1 s2 x W1 W2 W3 b (j 0) (j 1)

/-- The endpoint output as an array. -/
def ep (S : Mat n 128) (s : Mat n 1) (x : Mat n 128) (W1 W2 : Mat 128 128) (b : Mat 1 128) : Mat n 128 :=
  fun j => epE S s x W1 W2 b (j 0) (j 1)

/-- Rows p of some blocks and r of some arrays that agree entry by entry give the same aggregated term. -/
theorem agg_congr {n' : ℕ} {S : Mat n 128} {s : Mat n 1} {S' : Mat n' 128} {s' : Mat n' 1} (W : Mat 128 128)
    {p : Fin n} {r : Fin n'} (hS : ∀ k, S (ix2 p k) = S' (ix2 r k)) (hs : s (ix2 p (0 : Fin 1)) = s' (ix2 r (0 : Fin 1)))
    (q : Fin 128) : agg S s W p q = agg S' s' W r q := by
  unfold agg
  exact Finset.sum_congr rfl fun k _ => by rw [hS k, hs]

/-- The same for the node's own features. -/
theorem lin_congr {n' : ℕ} {x : Mat n 128} {x' : Mat n' 128} (W : Mat 128 128) {p : Fin n} {r : Fin n'}
    (hx : ∀ k, x (ix2 p k) = x' (ix2 r k)) (q : Fin 128) : lin x W p q = lin x' W r q := by
  unfold lin
  exact Finset.sum_congr rfl fun k _ => by rw [hx k]

/-! ## The two laws -/

/-- A divisor that is the larger of some number and one is not zero. -/
theorem max_one_ne_zero (c : EReal) : max c 1 ≠ 0 := by
  intro h
  have h1 : (1 : EReal) ≤ max c 1 := le_max_right _ _
  rw [h] at h1
  exact absurd h1 (by norm_num)

/-- Multiplying by the reciprocal of a non-zero divisor is dividing by it, for every extended real dividend. -/
theorem mul_inv_eq_div (x d : EReal) (hd : d ≠ 0) : x * Ideal.div 1 d = Ideal.div x d := by
  rw [Ideal.div, if_neg hd, Ideal.div, if_neg hd, one_mul]

/-- A finite sum of products with a sum of two real factors splits, when the common factors are real too. -/
theorem sum_mul_add {K : Type} [Fintype K] (x u v : K → EReal) (hx : ∀ k, IsReal (x k)) (hu : ∀ k, IsReal (u k))
    (hv : ∀ k, IsReal (v k)) : ∑ k, x k * (u k + v k) = ∑ k, x k * u k + ∑ k, x k * v k := by
  rw [← Finset.sum_add_distrib]
  refine Finset.sum_congr rfl fun k _ => ?_
  obtain ⟨a, ha⟩ := hx k
  obtain ⟨b, hb⟩ := hu k
  obtain ⟨c, hc⟩ := hv k
  rw [ha, hb, hc, ← EReal.coe_add, ← EReal.coe_mul, ← EReal.coe_mul, ← EReal.coe_mul, ← EReal.coe_add, mul_add]

/-- Six terms added in two orders. -/
theorem six_terms (A1 A2 L1 L2 b1 b2 : EReal) :
    ((A1 + A2) + (L1 + L2)) + (b1 + b2) = ((A1 + b1) + L1) + ((A2 + b2) + L2) := by
  ac_rfl

end Cert.Sage

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Payload.lean ====
/-
  What each kernel body stores, read at an entry (p, q) of its 4000-row block, on the extended reals.

  The body scales each row of feature sums by the row's one number, multiplies by a 128 x 128 weight into a zero
  accumulator, does the same to the node's own features without the scaling, adds the products and adds a bias
  row spread over the rows. A change of float format is the identity here, and a product into a zero accumulator
  is the plain sum over the contracted axis. So the stored entry is the entry of the layer's function of the
  body's loaded blocks.
-/
import proofs.«134629_j74766790689426_2_alg».proof.Proof.Gen.KernelIdeal.Skeleton
import proofs.«134629_j74766790689426_2_alg».proof.Proof.Spec
import proofs.«134629_j74766790689426_2_alg».proof.Proof.LibMatmulPlain
import proofs.«134629_j74766790689426_2_alg».proof.Proof.LibKeepdims
import Idealize.ShloMosaic.Lib.Pipeline.Value
import Idealize.ShloMosaic.Lib.ValueIdx
import Idealize.ShloMosaic.Lib.ValueLayout

noncomputable section

open scoped BigOperators

namespace Cert.Sage.Payload

open Idealize.ShloMosaic Idealize.ShloMosaic.ValueIdx
open Cert.KernelIdeal (S4000x128 S4000x1 S128x128 S1x128)

variable (d : DotDims S4000x128 S128x128 S4000x128)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The scaled feature sums through a weight: entry (p, q) of the product is the sum over k of
    (S(p, k) * s(p)) * W(k, q). -/
theorem agg_read (S : FVec Ideal S4000x128 .f32) (s : FVec Ideal S4000x1 .f32) (W : FVec Ideal S128x128 .bf16)
    (h1 : S4000x128.ShapeCasts S4000x128) (h2 : S4000x1.ShapeCasts S4000x1) (h3 : S4000x1.Broadcasts S4000x128)
    (h4 : FTy.bits .bf16 < FTy.bits .f32) (h5 : S128x128.ShapeCasts S128x128) (p : Fin 4000) (q : Fin 128) :
    matmul d none (truncf .bf16 (mulf (shapeCast S4000x128 S h1) (broadcastTo S4000x128 (shapeCast S4000x1 s h2) h3)) h4)
      (shapeCast S128x128 W h5) (constant S4000x128 .f32 0x00000000#32) (ix2 p q) = agg S s W p q := by
  refine (Cert.LibMatmulPlain.matmul_zero_apply d hlc hrc hln hrn hlb hrb none _ _ p q).trans ?_
  unfold agg
  refine Finset.sum_congr rfl fun k _ => ?_
  rw [shapeCast_self, shapeCast_self, shapeCast_self]
  show S (ix2 p k) * broadcastTo S4000x128 s h3 (ix2 p k) * W (ix2 k q) = _
  rw [Cert.LibKeepdims.broadcastTo_a1_ab_apply]

include hlc hrc hln hrn hlb hrb in
/-- The node's own features through a weight: entry (p, q) is the sum over k of x(p, k) * W(k, q). -/
theorem lin_read (x : FVec Ideal S4000x128 .f32) (W : FVec Ideal S128x128 .bf16)
    (h4 : FTy.bits .bf16 < FTy.bits .f32) (h5 : S128x128.ShapeCasts S128x128) (p : Fin 4000) (q : Fin 128) :
    matmul d none (truncf .bf16 x h4) (shapeCast S128x128 W h5) (constant S4000x128 .f32 0x00000000#32) (ix2 p q)
      = lin x W p q := by
  refine (Cert.LibMatmulPlain.matmul_zero_apply d hlc hrc hln hrn hlb hrb none _ _ p q).trans ?_
  unfold lin
  refine Finset.sum_congr rfl fun k _ => ?_
  rw [shapeCast_self]
  rfl

/-- The bias row spread over the rows reads, at (p, q), the row's entry q. -/
theorem bias_read (b : FVec Ideal S1x128 .f32) (h6 : S1x128.ShapeCasts S1x128) (h7 : S1x128.Broadcasts S4000x128)
    (p : Fin 4000) (q : Fin 128) :
    broadcastTo S4000x128 (shapeCast S1x128 b h6) h7 (ix2 p q) = b (ix2 (0 : Fin 1) q) :=
  Cert.LibKeepdims.row_spread_apply b h6 h7 p q

open Cert.KernelIdeal Cert.KernelIdeal.Gen in
/-- The service kernel's stored entry is the service output's entry of its loaded blocks. -/
theorem pay0_apply (v0 : FVec Ideal S4000x128 .f32) (v2 : FVec Ideal S4000x1 .f32) (v7 : FVec Ideal S4000x128 .f32)
    (v9 : FVec Ideal S4000x1 .f32) (v14 : FVec Ideal S4000x128 .f32) (v16 v19 v23 : FVec Ideal S128x128 .bf16)
    (v27 : FVec Ideal S1x128 .f32) (p : Fin 4000) (q : Fin 128) :
    k0_pay1 (F := Ideal) v0 v2 v7 v9 v14 v16 v19 v23 v27 (ix2 p q) = svcE v0 v7 v2 v9 v14 v16 v19 v23 v27 p q := by
  unfold k0_pay1 svcE
  exact congrArg₂ (· + ·)
    (congrArg₂ (· + ·)
      (congrArg₂ (· + ·)
        (agg_read _ rfl rfl rfl rfl rfl rfl v0 v2 v16 _ _ _ _ _ p q)
        (agg_read _ rfl rfl rfl rfl rfl rfl v7 v9 v19 _ _ _ _ _ p q))
      (lin_read _ rfl rfl rfl rfl rfl rfl v14 v23 _ _ p q))
    (bias_read v27 _ _ p q)

open Cert.KernelIdeal Cert.KernelIdeal.Gen in
/-- The endpoint kernel's stored entry is the endpoint output's entry of its loaded blocks. -/
theorem pay1_apply (v0 : FVec Ideal S4000x128 .f32) (v2 : FVec Ideal S4000x1 .f32) (v7 : FVec Ideal S4000x128 .f32)
    (v9 v12 : FVec Ideal S128x128 .bf16) (v16 : FVec Ideal S1x128 .f32) (p : Fin 4000) (q : Fin 128) :
    k1_pay1 (F := Ideal) v0 v2 v7 v9 v12 v16 (ix2 p q) = epE v0 v2 v7 v9 v12 v16 p q := by
  unfold k1_pay1 epE
  exact congrArg₂ (· + ·)
    (congrArg₂ (· + ·)
      (agg_read _ rfl rfl rfl rfl rfl rfl v0 v2 v9 _ _ _ _ _ p q)
      (lin_read _ rfl rfl rfl rfl rfl rfl v7 v12 _ _ p q))
    (bias_read v16 _ _ p q)

end Cert.Sage.Payload

end
-- ==== Proof.Region0.lean ====
/-
  The service kernel's output array after its 25 grid points.

  Point t works on rows 4000 t .. 4000 t + 3999: it is handed those rows of the two arrays of feature sums, of
  the two columns of scaling numbers and of the node features, the three weights and the bias row whole, and
  writes those rows of the output back. So what point t writes back is rows 4000 t .. of the layer's function of
  the whole arrays; the 25 row blocks cover the 100000 rows; and the array ends at that function.
-/
import proofs.«134629_j74766790689426_2_alg».proof.Proof.Gen.KernelIdeal.Frame
import proofs.«134629_j74766790689426_2_alg».proof.Proof.Payload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Sage.Region0

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the row-blocked windows sit at block (t, 0), the whole ones at
    block (0, 0). -/
theorem idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each input block as rows of its array -/

theorem blk_0 (c : Dev nD) (t : Fin cfg0.N) (p : Fin 4000) (k : Fin 128) (r : Fin 100000) (hr : r.val = t.val * 4000 + p.val) :
    (iblk0 V c 0 t : Vec Ideal S4000x128 .f32) (ix2 p k) = (V c main_v13 : S100000x128.Idx → Elt Ideal .f32) (ix2 r k) := by
  obtain ⟨⟨e0, e1⟩, -⟩ := idx t
  unfold iblk0
  rw [View.read_apply]
  show V c main_v13 _ = V c main_v13 _
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

theorem blk_1 (c : Dev nD) (t : Fin cfg0.N) (p : Fin 4000) (k : Fin 128) (r : Fin 100000) (hr : r.val = t.val * 4000 + p.val) :
    (iblk0 V c 1 t : Vec Ideal S4000x128 .f32) (ix2 p k) = (V c main_v35 : S100000x128.Idx → Elt Ideal .f32) (ix2 r k) := by
  obtain ⟨-, ⟨e0, e1⟩, -⟩ := idx t
  unfold iblk0
  rw [View.read_apply]
  show V c main_v35 _ = V c main_v35 _
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

theorem blk_2 (c : Dev nD) (t : Fin cfg0.N) (p : Fin 4000) (r : Fin 100000) (hr : r.val = t.val * 4000 + p.val) :
    (iblk0 V c 2 t : Vec Ideal S4000x1 .f32) (ix2 p (0 : Fin 1)) = (V c main_v21 : S100000x1.Idx → Elt Ideal .f32) (ix2 r (0 : Fin 1)) := by
  obtain ⟨-, -, ⟨e0, e1⟩, -⟩ := idx t
  unfold iblk0
  rw [View.read_apply]
  show V c main_v21 _ = V c main_v21 _
  refine congrArg _ (funext fun a => Fin.ext ?_)
  match a with
  | ⟨0, _⟩ => show win0_2.index t (0 : Fin 2) * 4000 + 1 * p.val = r.val; omega
  | ⟨1, _⟩ => show win0_2.index t (1 : Fin 2) * 1 + 1 * 0 = 0; omega

theorem blk_3 (c : Dev nD) (t : Fin cfg0.N) (p : Fin 4000) (r : Fin 100000) (hr : r.val = t.val * 4000 + p.val) :
    (iblk0 V c 3 t : Vec Ideal S4000x1 .f32) (ix2 p (0 : Fin 1)) = (V c main_v43 : S100000x1.Idx → Elt Ideal .f32) (ix2 r (0 : Fin 1)) := by
  obtain ⟨-, -, -, ⟨e0, e1⟩, -⟩ := idx t
  unfold iblk0
  rw [View.read_apply]
  show V c main_v43 _ = V c main_v43 _
  refine congrArg _ (funext fun a => Fin.ext ?_)
  match a with
  | ⟨0, _⟩ => show win0_3.index t (0 : Fin 2) * 4000 + 1 * p.val = r.val; omega
  | ⟨1, _⟩ => show win0_3.index t (1 : Fin 2) * 1 + 1 * 0 = 0; omega

theorem blk_4 (c : Dev nD) (t : Fin cfg0.N) (p : Fin 4000) (k : Fin 128) (r : Fin 100000) (hr : r.val = t.val * 4000 + p.val) :
    (iblk0 V c 4 t : Vec Ideal S4000x128 .f32) (ix2 p k) = (V c main_arg0 : S100000x128.Idx → Elt Ideal .f32) (ix2 r k) := by
  obtain ⟨-, -, -, -, ⟨e0, e1⟩, -⟩ := idx t
  unfold iblk0
  rw [View.read_apply]
  show V c main_arg0 _ = V c main_arg0 _
  refine congrArg _ (funext fun a => Fin.ext ?_)
  match a with
  | ⟨0, _⟩ => show win0_4.index t (0 : Fin 2) * 4000 + 1 * p.val = r.val; omega
  | ⟨1, _⟩ => show win0_4.index t (1 : Fin 2) * 128 + 1 * k.val = k.val; omega

theorem blk_5 (c : Dev nD) (t : Fin cfg0.N) :
    (iblk0 V c 5 t : Vec Ideal S128x128 .bf16) = (V c main_v67 : S128x128.Idx → Elt Ideal .bf16) := by
  obtain ⟨-, -, -, -, -, ⟨e0, e1⟩, -⟩ := idx t
  funext j
  unfold iblk0
  rw [View.read_apply]
  show V c main_v67 _ = V c main_v67 j
  refine congrArg _ (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem blk_6 (c : Dev nD) (t : Fin cfg0.N) :
    (iblk0 V c 6 t : Vec Ideal S128x128 .bf16) = (V c main_v69 : S128x128.Idx → Elt Ideal .bf16) := by
  obtain ⟨-, -, -, -, -, -, ⟨e0, e1⟩, -⟩ := idx t
  funext j
  unfold iblk0
  rw [View.read_apply]
  show V c main_v69 _ = V c main_v69 j
  refine congrArg _ (funext fun a => Fin.ext ?_)
  match a with
  | ⟨0, _⟩ => show win0_6.index t (0 : Fin 2) * 128 + 1 * (j 0).val = (j 0).val; omega
  | ⟨1, _⟩ => show win0_6.index t (1 : Fin 2) * 128 + 1 * (j 1).val = (j 1).val; omega

theorem blk_7 (c : Dev nD) (t : Fin cfg0.N) :
    (iblk0 V c 7 t : Vec Ideal S128x128 .bf16) = (V c main_v73 : S128x128.Idx → Elt Ideal .bf16) := by
  obtain ⟨-, -, -, -, -, -, -, ⟨e0, e1⟩, -⟩ := idx t
  funext j
  unfold iblk0
  rw [View.read_apply]
  show V c main_v73 _ = V c main_v73 j
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega

theorem blk_8 (c : Dev nD) (t : Fin cfg0.N) :
    (iblk0 V c 8 t : Vec Ideal S1x128 .f32) = (V c main_v75 : S1x128.Idx → Elt Ideal .f32) := by
  obtain ⟨-, -, -, -, -, -, -, -, ⟨e0, e1⟩, -⟩ := idx t
  funext j
  unfold iblk0
  rw [View.read_apply]
  show V c main_v75 _ = V c main_v75 j
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 128 + 1 * (j 1).val = (j 1).val; omega

/-! ## What a point writes back, the cover, the array -/

/-- The service output of the arrays as the region finds them. -/
abbrev out (c : Dev nD) : Mat 100000 128 :=
  svc (V c main_v13) (V c main_v35) (V c main_v21) (V c main_v43) (V c main_arg0) (V c main_v67) (V c main_v69)
    (V c main_v73) (V c main_v75)

/-- Point t writes back rows 4000 t .. 4000 t + 3999 of the service output of the whole arrays. -/
theorem flushed (c : Dev nD) (t : Fin cfg0.N) :
    (dat0 V c).flushed 9 t = ((cfg0.win 9).blk t).view.read (Elt Ideal) (out V c) := by
  show (cfg0.win 9).cut (grid0.coords t) ((dat0 V c).after 9 t) = _
  rw [after0_9]
  unfold out0_9
  rw [View.canon_unit_zero hz]
  simp only [View.ld_unit_zero (S := S4000x128) hz, View.ld_unit_zero (S := S4000x1) hz,
    View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  refine (Payload.pay0_apply _ _ _ _ _ _ _ _ _ p q).trans ?_
  have hN : cfg0.N = 25 := N_0
  have ht : t.val < 25 := hN ▸ t.isLt
  obtain ⟨r, hr⟩ : ∃ r : Fin 100000, r.val = t.val * 4000 + p.val := ⟨⟨t.val * 4000 + p.val, by omega⟩, rfl⟩
  obtain ⟨-, -, -, -, -, -, -, -, -, ⟨e0, e1⟩⟩ := idx t
  rw [View.read_apply]
  have hemb : ((cfg0.win 9).blk t).view.emb (ix2 p q) = (ix2 r q : S100000x128.Idx) := by
    funext a; apply Fin.ext
    match a with
    | ⟨0, _⟩ => show win0_9.index t (0 : Fin 2) * 4000 + 1 * p.val = r.val; omega
    | ⟨1, _⟩ => show win0_9.index t (1 : Fin 2) * 128 + 1 * q.val = q.val; omega
  rw [hemb]
  show svcE _ _ _ _ _ _ _ _ _ p q = svcE _ _ _ _ _ _ _ _ _ r q
  unfold svcE
  rw [blk_5 V c t, blk_6 V c t, blk_7 V c t, blk_8 V c t,
    agg_congr _ (fun k => blk_0 V c t p k r hr) (blk_2 V c t p r hr) q,
    agg_congr _ (fun k => blk_1 V c t p k r hr) (blk_3 V c t p r hr) q,
    lin_congr _ (fun k => blk_4 V c t p k r hr) q]

/-- An index of the array is in point t's block iff each coordinate is in the block's range on its axis. -/
theorem mem_blk (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v81).slice (win0_9.rect t)).set ↔ _
  rw [View.set_slice_whole, Rect.mem_set_unit]
  exact Iff.rfl

/-- Row r lies in the block of point r / 4000. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, ⟨e0, e1⟩⟩ := idx t
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- The output array after the region: the service output of the arrays the region found. -/
theorem final (c : Dev nD) : (dat0 V c).arrAt 9 cfg0.N = out V c :=
  (dat0 V c).arrAt_eq_of_cover 9 (out V c) (fun t _ => flushed V c t) cover

end Cert.Sage.Region0

end
-- ==== Proof.Region1.lean ====
/-
  The endpoint kernel's output array after its 25 grid points.

  Point t works on rows 4000 t .. 4000 t + 3999: it is handed those rows of the array of feature sums, of the
  column of scaling numbers and of the node features, the two weights and the bias row whole, and writes those
  rows of the output back. The 25 row blocks cover the 100000 rows, so the array ends at the layer's function of
  the whole arrays.
-/
import proofs.«134629_j74766790689426_2_alg».proof.Proof.Gen.KernelIdeal.Frame
import proofs.«134629_j74766790689426_2_alg».proof.Proof.Payload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Sage.Region1

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the row-blocked windows sit at block (t, 0), the whole ones at
    block (0, 0). -/
theorem idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## Each input block as rows of its array -/

theorem blk_0 (c : Dev nD) (t : Fin cfg1.N) (p : Fin 4000) (k : Fin 128) (r : Fin 100000) (hr : r.val = t.val * 4000 + p.val) :
    (iblk1 V c 0 t : Vec Ideal S4000x128 .f32) (ix2 p k) = (V c main_v57 : S100000x128.Idx → Elt Ideal .f32) (ix2 r k) := by
  obtain ⟨⟨e0, e1⟩, -⟩ := idx t
  unfold iblk1
  rw [View.read_apply]
  show V c main_v57 _ = V c main_v57 _
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

theorem blk_1 (c : Dev nD) (t : Fin cfg1.N) (p : Fin 4000) (r : Fin 100000) (hr : r.val = t.val * 4000 + p.val) :
    (iblk1 V c 1 t : Vec Ideal S4000x1 .f32) (ix2 p (0 : Fin 1)) = (V c main_v65 : S100000x1.Idx → Elt Ideal .f32) (ix2 r (0 : Fin 1)) := by
  obtain ⟨-, ⟨e0, e1⟩, -⟩ := idx t
  unfold iblk1
  rw [View.read_apply]
  show V c main_v65 _ = V c main_v65 _
  refine congrArg _ (funext fun a => Fin.ext ?_)
  match a with
  | ⟨0, _⟩ => show win1_1.index t (0 : Fin 2) * 4000 + 1 * p.val = r.val; omega
  | ⟨1, _⟩ => show win1_1.index t (1 : Fin 2) * 1 + 1 * 0 = 0; omega

theorem blk_2 (c : Dev nD) (t : Fin cfg1.N) (p : Fin 4000) (k : Fin 128) (r : Fin 100000) (hr : r.val = t.val * 4000 + p.val) :
    (iblk1 V c 2 t : Vec Ideal S4000x128 .f32) (ix2 p k) = (V c main_arg1 : S100000x128.Idx → Elt Ideal .f32) (ix2 r k) := by
  obtain ⟨-, -, ⟨e0, e1⟩, -⟩ := idx t
  unfold iblk1
  rw [View.read_apply]
  show V c main_arg1 _ = V c main_arg1 _
  refine congrArg _ (funext fun a => Fin.ext ?_)
  match a with
  | ⟨0, _⟩ => show win1_2.index t (0 : Fin 2) * 4000 + 1 * p.val = r.val; omega
  | ⟨1, _⟩ => show win1_2.index t (1 : Fin 2) * 128 + 1 * k.val = k.val; omega

theorem blk_3 (c : Dev nD) (t : Fin cfg1.N) :
    (iblk1 V c 3 t : Vec Ideal S128x128 .bf16) = (V c main_v77 : S128x128.Idx → Elt Ideal .bf16) := by
  obtain ⟨-, -, -, ⟨e0, e1⟩, -⟩ := idx t
  funext j
  unfold iblk1
  rw [View.read_apply]
  show V c main_v77 _ = V c main_v77 j
  refine congrArg _ (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega

theorem blk_4 (c : Dev nD) (t : Fin cfg1.N) :
    (iblk1 V c 4 t : Vec Ideal S128x128 .bf16) = (V c main_v79 : S128x128.Idx → Elt Ideal .bf16) := by
  obtain ⟨-, -, -, -, ⟨e0, e1⟩, -⟩ := idx t
  funext j
  unfold iblk1
  rw [View.read_apply]
  show V c main_v79 _ = V c main_v79 j
  refine congrArg _ (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

theorem blk_5 (c : Dev nD) (t : Fin cfg1.N) :
    (iblk1 V c 5 t : Vec Ideal S1x128 .f32) = (V c main_v80 : S1x128.Idx → Elt Ideal .f32) := by
  obtain ⟨-, -, -, -, -, ⟨e0, e1⟩, -⟩ := idx t
  funext j
  unfold iblk1
  rw [View.read_apply]
  show V c main_v80 _ = V c main_v80 j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

/-! ## What a point writes back, the cover, the array -/

/-- The endpoint output of the arrays as the region finds them. -/
abbrev out (c : Dev nD) : Mat 100000 128 :=
  ep (V c main_v57) (V c main_v65) (V c main_arg1) (V c main_v77) (V c main_v79) (V c main_v80)

/-- Point t writes back rows 4000 t .. 4000 t + 3999 of the endpoint output of the whole arrays. -/
theorem flushed (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  refine (Payload.pay1_apply _ _ _ _ _ _ p q).trans ?_
  have hN : cfg1.N = 25 := N_1
  have ht : t.val < 25 := hN ▸ t.isLt
  obtain ⟨r, hr⟩ : ∃ r : Fin 100000, r.val = t.val * 4000 + p.val := ⟨⟨t.val * 4000 + p.val, by omega⟩, rfl⟩
  obtain ⟨-, -, -, -, -, -, ⟨e0, e1⟩⟩ := idx t
  rw [View.read_apply]
  have hemb : ((cfg1.win 6).blk t).view.emb (ix2 p q) = (ix2 r q : S100000x128.Idx) := by
    funext a; apply Fin.ext
    match a with
    | ⟨0, _⟩ => show win1_6.index t (0 : Fin 2) * 4000 + 1 * p.val = r.val; omega
    | ⟨1, _⟩ => show win1_6.index t (1 : Fin 2) * 128 + 1 * q.val = q.val; omega
  rw [hemb]
  show epE _ _ _ _ _ _ p q = epE _ _ _ _ _ _ r q
  unfold epE
  rw [blk_3 V c t, blk_4 V c t, blk_5 V c t,
    agg_congr _ (fun k => blk_0 V c t p k r hr) (blk_1 V c t p r hr) q,
    lin_congr _ (fun k => blk_2 V c t p k r hr) q]

/-- An index of the array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v82).slice (win1_6.rect t)).set ↔ _
  rw [View.set_slice_whole, Rect.mem_set_unit]
  exact Iff.rfl

/-- Row r lies in the block of point r / 4000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, ⟨e0, e1⟩⟩ := idx t
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output array after the region: the endpoint output of the arrays the region found. -/
theorem final (c : Dev nD) : (dat1 V c).arrAt 6 cfg1.N = out V c :=
  (dat1 V c).arrAt_eq_of_cover 6 (out V c) (fun t _ => flushed V c t) cover

end Cert.Sage.Region1

end
-- ==== Proof.Outputs.lean ====
/-
  The two results as functions of the program's arguments.

  The arrays of feature sums and the in-degree columns are stages of the reference program (a gather of source rows
  added into destination rows; ones added into destination rows): they are taken whole, never opened. The scaling
  column of an edge type is one over the larger of its in-degree and one. The service output takes the "calls" and
  the "belongs" edge types with their transposed weights, the service features through the sum of the two
  transposed root weights, and the sum of the two biases; the endpoint output takes the "has" edge type.
-/
import proofs.«134629_j74766790689426_2_alg».proof.Proof.Gen.ReferenceIdeal.Read
import proofs.«134629_j74766790689426_2_alg».proof.Proof.Spec

noncomputable section

namespace Cert.Sage

open Idealize.ShloMosaic
open Cert.ReferenceIdeal Cert.ReferenceIdeal.Read

/-- The scaling column of the "calls" edge type. -/
def invCalls (x2 : IVec S2x300000 32) : FVec Ideal S100000x1 .f32 :=
  Host.divf (val_main_v18 (F := Ideal)) (val_main_v19 (F := Ideal) x2)

/-- The scaling column of the "belongs" edge type. -/
def invBelongs (x4 : IVec S2x300000 32) : FVec Ideal S100000x1 .f32 :=
  Host.divf (val_main_v48 (F := Ideal)) (val_main_v49 (F := Ideal) x4)

/-- The scaling column of the "has" edge type. -/
def invHas (x3 : IVec S2x300000 32) : FVec Ideal S100000x1 .f32 :=
  Host.divf (val_main_v78 (F := Ideal)) (val_main_v79 (F := Ideal) x3)

/-- The service output of the arguments. -/
def svcOut (x0 x1 : FVec Ideal S100000x128 .f32) (x2 x4 : IVec S2x300000 32) (x5 : FVec Ideal S128x128 .f32)
    (x6 : FVec Ideal S128 .f32) (x7 x11 : FVec Ideal S128x128 .f32) (x12 : FVec Ideal S128 .f32)
    (x13 : FVec Ideal S128x128 .f32) (h : S128.ShapeCasts S1x128) : Mat 100000 128 :=
  svc (n := 100000) (val_main_v13 (F := Ideal) x0 x2) (val_main_v43 (F := Ideal) x1 x4) (invCalls x2) (invBelongs x4) x0
    (val_main_v22 (F := Ideal) x5) (val_main_v52 (F := Ideal) x11)
    (addf (val_main_v27 (F := Ideal) x7) (val_main_v57 (F := Ideal) x13) : FVec Ideal S128x128 .f32)
    (shapeCast S1x128 (addf x6 x12 : FVec Ideal S128 .f32) h : FVec Ideal S1x128 .f32)

/-- The endpoint output of the arguments. -/
def epOut (x0 x1 : FVec Ideal S100000x128 .f32) (x3 : IVec S2x300000 32) (x8 : FVec Ideal S128x128 .f32)
    (x9 : FVec Ideal S128 .f32) (x10 : FVec Ideal S128x128 .f32) (h : S128.ShapeCasts S1x128) : Mat 100000 128 :=
  ep (n := 100000) (val_main_v73 (F := Ideal) x0 x3) (invHas x3) x1 (val_main_v82 (F := Ideal) x8)
    (val_main_v87 (F := Ideal) x10) (shapeCast S1x128 x9 h : FVec Ideal S1x128 .f32)

end Cert.Sage

end
-- ==== Proof.HostReads0.lean ====
/-
  The arrays a kernel region is handed, as functions of the program's arguments.

  Before the regions run, the program's host operations have computed, from the argument arrays, the arrays of
  feature sums (a gather of source rows added into destination rows), the columns of scaling numbers (one over
  the larger of the in-degree and one), the transposed weights and the bias rows. Reading a buffer after the
  whole stretch of host operations walks back to the one operation that wrote it, and from there to the arguments.
  The stages are named by the reference program's stages, which are the same operations.
-/
import proofs.«134629_j74766790689426_2_alg».proof.Proof.Gen.KernelIdeal.Frame
import proofs.«134629_j74766790689426_2_alg».proof.Proof.Outputs
import Idealize.ShloMosaic.Lib.StableHlo.Run

noncomputable section

namespace Cert.Sage.HostReads0

open Cert.KernelIdeal Cert.KernelIdeal.Gen
open Idealize.ShloMosaic Idealize.ShloMosaic.TcCoe Idealize.SL.Sem Idealize.ShloMosaic.StableHlo
open Cert.ReferenceIdeal.Read (val_main_v13 val_main_v43 val_main_v73 val_main_v22 val_main_v52 val_main_v27 val_main_v57 val_main_v82 val_main_v87)

variable (m : (ℓ : Loc nD τ sig) → Buf (Elt Ideal) ℓ) (ρ : Dev nD → PrngReg) (c : Dev nD)

theorem sums_calls : (V1 m ρ c main_v13 : FVec Ideal S100000x128 .f32) = val_main_v13 (F := Ideal) (m ((c.tc : Thread nD τ).loc main_arg0)) (m ((c.tc : Thread nD τ).loc main_arg2)) := by
  show StableHlo.after hostOps0 (W0 m ρ c) (Proc.devRef .tc main_v13) = _
  after_results_simp
  all_goals rfl

theorem sums_belongs : (V1 m ρ c main_v35 : FVec Ideal S100000x128 .f32) = val_main_v43 (F := Ideal) (m ((c.tc : Thread nD τ).loc main_arg1)) (m ((c.tc : Thread nD τ).loc main_arg4)) := by
  show StableHlo.after hostOps0 (W0 m ρ c) (Proc.devRef .tc main_v35) = _
  after_results_simp
  all_goals rfl

theorem inv_calls : (V1 m ρ c main_v21 : FVec Ideal S100000x1 .f32) = Cert.Sage.invCalls (m ((c.tc : Thread nD τ).loc main_arg2)) := by
  show StableHlo.after hostOps0 (W0 m ρ c) (Proc.devRef .tc main_v21) = _
  after_results_simp
  all_goals rfl

theorem inv_belongs : (V1 m ρ c main_v43 : FVec Ideal S100000x1 .f32) = Cert.Sage.invBelongs (m ((c.tc : Thread nD τ).loc main_arg4)) := by
  show StableHlo.after hostOps0 (W0 m ρ c) (Proc.devRef .tc main_v43) = _
  after_results_simp
  all_goals rfl

theorem feat : (V1 m ρ c main_arg0 : FVec Ideal S100000x128 .f32) = (m ((c.tc : Thread nD τ).loc main_arg0)) := by
  show StableHlo.after hostOps0 (W0 m ρ c) (Proc.devRef .tc main_arg0) = _
  after_results_simp
  all_goals rfl

theorem wl_calls : (V1 m ρ c main_v67 : FVec Ideal S128x128 .bf16) = val_main_v22 (F := Ideal) (m ((c.tc : Thread nD τ).loc main_arg5)) := by
  show StableHlo.after hostOps0 (W0 m ρ c) (Proc.devRef .tc main_v67) = _
  after_results_simp
  all_goals rfl

theorem wl_belongs : (V1 m ρ c main_v69 : FVec Ideal S128x128 .bf16) = val_main_v52 (F := Ideal) (m ((c.tc : Thread nD τ).loc main_arg11)) := by
  show StableHlo.after hostOps0 (W0 m ρ c) (Proc.devRef .tc main_v69) = _
  after_results_simp
  all_goals rfl

theorem wr_sum : (V1 m ρ c main_v73 : FVec Ideal S128x128 .bf16) = (addf (val_main_v27 (F := Ideal) (m ((c.tc : Thread nD τ).loc main_arg7))) (val_main_v57 (F := Ideal) (m ((c.tc : Thread nD τ).loc main_arg13))) : FVec Ideal S128x128 .f32) := by
  show StableHlo.after hostOps0 (W0 m ρ c) (Proc.devRef .tc main_v73) = _
  after_results_simp
  all_goals rfl

theorem bias_sum : (V1 m ρ c main_v75 : FVec Ideal S1x128 .f32) = (shapeCast S1x128 (addf (m ((c.tc : Thread nD τ).loc main_arg6)) (m ((c.tc : Thread nD τ).loc main_arg12)) : FVec Ideal S128 .f32) shapeCasts_S128_S1x128 : FVec Ideal S1x128 .f32) := by
  show StableHlo.after hostOps0 (W0 m ρ c) (Proc.devRef .tc main_v75) = _
  after_results_simp
  all_goals rfl

end Cert.Sage.HostReads0

end
-- ==== Proof.HostReads1.lean ====
/-
  The arrays a kernel region is handed, as functions of the program's arguments.

  Before the regions run, the program's host operations have computed, from the argument arrays, the arrays of
  feature sums (a gather of source rows added into destination rows), the columns of scaling numbers (one over
  the larger of the in-degree and one), the transposed weights and the bias rows. Reading a buffer after the
  whole stretch of host operations walks back to the one operation that wrote it, and from there to the arguments.
  The stages are named by the reference program's stages, which are the same operations.
-/
import proofs.«134629_j74766790689426_2_alg».proof.Proof.Gen.KernelIdeal.Frame
import proofs.«134629_j74766790689426_2_alg».proof.Proof.Outputs
import Idealize.ShloMosaic.Lib.StableHlo.Run

noncomputable section

namespace Cert.Sage.HostReads1

open Cert.KernelIdeal Cert.KernelIdeal.Gen
open Idealize.ShloMosaic Idealize.ShloMosaic.TcCoe Idealize.SL.Sem Idealize.ShloMosaic.StableHlo
open Cert.ReferenceIdeal.Read (val_main_v13 val_main_v43 val_main_v73 val_main_v22 val_main_v52 val_main_v27 val_main_v57 val_main_v82 val_main_v87)

variable (m : (ℓ : Loc nD τ sig) → Buf (Elt Ideal) ℓ) (ρ : Dev nD → PrngReg) (c : Dev nD)

theorem sums_has : (V1 m ρ c main_v57 : FVec Ideal S100000x128 .f32) = val_main_v73 (F := Ideal) (m ((c.tc : Thread nD τ).loc main_arg0)) (m ((c.tc : Thread nD τ).loc main_arg3)) := by
  show StableHlo.after hostOps0 (W0 m ρ c) (Proc.devRef .tc main_v57) = _
  after_results_simp
  all_goals rfl

theorem inv_has : (V1 m ρ c main_v65 : FVec Ideal S100000x1 .f32) = Cert.Sage.invHas (m ((c.tc : Thread nD τ).loc main_arg3)) := by
  show StableHlo.after hostOps0 (W0 m ρ c) (Proc.devRef .tc main_v65) = _
  after_results_simp
  all_goals rfl

theorem feat : (V1 m ρ c main_arg1 : FVec Ideal S100000x128 .f32) = (m ((c.tc : Thread nD τ).loc main_arg1)) := by
  show StableHlo.after hostOps0 (W0 m ρ c) (Proc.devRef .tc main_arg1) = _
  after_results_simp
  all_goals rfl

theorem wl_has : (V1 m ρ c main_v77 : FVec Ideal S128x128 .bf16) = val_main_v82 (F := Ideal) (m ((c.tc : Thread nD τ).loc main_arg8)) := by
  show StableHlo.after hostOps0 (W0 m ρ c) (Proc.devRef .tc main_v77) = _
  after_results_simp
  all_goals rfl

theorem wr_has : (V1 m ρ c main_v79 : FVec Ideal S128x128 .bf16) = val_main_v87 (F := Ideal) (m ((c.tc : Thread nD τ).loc main_arg10)) := by
  show StableHlo.after hostOps0 (W0 m ρ c) (Proc.devRef .tc main_v79) = _
  after_results_simp
  all_goals rfl

theorem bias_has : (V1 m ρ c main_v80 : FVec Ideal S1x128 .f32) = (shapeCast S1x128 (m ((c.tc : Thread nD τ).loc main_arg9)) shapeCasts_S128_S1x128 : FVec Ideal S1x128 .f32) := by
  show StableHlo.after hostOps0 (W0 m ρ c) (Proc.devRef .tc main_v80) = _
  after_results_simp
  all_goals rfl

end Cert.Sage.HostReads1

end
-- ==== Proof.KernelValue.lean ====
/-
  The idealized kernel program's two results as functions of its arguments.

  The service result array is what the first region's write-backs leave: the service output of the arrays that
  region was handed, which the host operations computed from the arguments. The second region does not touch it.
  The endpoint result array is what the second region's write-backs leave; the arrays it was handed are not
  among the first region's, so they are still what the host operations computed.
-/
import proofs.«134629_j74766790689426_2_alg».proof.Proof.RunOut
import proofs.«134629_j74766790689426_2_alg».proof.Proof.Region0
import proofs.«134629_j74766790689426_2_alg».proof.Proof.Region1
import proofs.«134629_j74766790689426_2_alg».proof.Proof.HostReads0
import proofs.«134629_j74766790689426_2_alg».proof.Proof.HostReads1

set_option maxRecDepth 16384

noncomputable section

namespace Cert.Sage.KernelValue

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- The service result array at the end of the run. -/
theorem out_service (c : Dev nD) :
    W3 m ρ c (Proc.devRef .tc main_v81) = svcOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) shapeCasts_S128_S1x128 := by
  have e1 : W3 m ρ c (Proc.devRef .tc main_v81) = (dat0 (V1 m ρ) c).arrAt 9 cfg0.N :=
    (W3_of_ne m ρ c main_v81 (by decide)).trans (W2_arr m ρ c 9)
  rw [e1, Region0.final (V1 m ρ) c]
  unfold Region0.out svcOut
  rw [HostReads0.sums_calls m ρ c, HostReads0.sums_belongs m ρ c, HostReads0.inv_calls m ρ c,
    HostReads0.inv_belongs m ρ c, HostReads0.feat m ρ c, HostReads0.wl_calls m ρ c, HostReads0.wl_belongs m ρ c,
    HostReads0.wr_sum m ρ c, HostReads0.bias_sum m ρ c]

/-- The endpoint result array at the end of the run. -/
theorem out_endpoint (c : Dev nD) :
    W3 m ρ c (Proc.devRef .tc main_v82) = epOut (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg9)) (m ((c.tc : Thread nD τ).loc main_arg10)) shapeCasts_S128_S1x128 := by
  have e1 : W3 m ρ c (Proc.devRef .tc main_v82) = (dat1 (V2 m ρ) c).arrAt 6 cfg1.N := W3_arr m ρ c 6
  have hv : ∀ b : Ref sig .tc, (∀ w, Pipeline.arrRef spec0 w ≠ b) → V2 m ρ c b = V1 m ρ c b :=
    fun b hb => W2_of_ne m ρ c b hb
  rw [e1, Region1.final (V2 m ρ) c]
  unfold Region1.out epOut
  rw [hv main_v57 (by decide), hv main_v65 (by decide), hv main_arg1 (by decide), hv main_v77 (by decide),
    hv main_v79 (by decide), hv main_v80 (by decide),
    HostReads1.sums_has m ρ c, HostReads1.inv_has m ρ c, HostReads1.feat m ρ c, HostReads1.wl_has m ρ c,
    HostReads1.wr_has m ρ c, HostReads1.bias_has m ρ c]

/-- The run, read: the two result arrays at their functions of the arguments, the arguments unchanged. -/
theorem run : θ_run defs (onTc (τ := τ) (main (F := Ideal))) ⟨m, fun _ => 0, ρ⟩ (fun r => ∀ c : Dev nD,
      r.2.mem ((c.tc : Thread nD τ).loc main_v81) = svcOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) shapeCasts_S128_S1x128
      ∧ r.2.mem ((c.tc : Thread nD τ).loc main_v82) = epOut (m ((c.tc : Thread nD τ).loc main_arg0)) (m ((c.tc : Thread nD τ).loc main_arg1)) (m ((c.tc : Thread nD τ).loc main_arg3)) (m ((c.tc : Thread nD τ).loc main_arg8)) (m ((c.tc : Thread nD τ).loc main_arg9)) (m ((c.tc : Thread nD τ).loc main_arg10)) shapeCasts_S128_S1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c main_v81 (by decide)).trans (out_service m ρ c),
     (h c main_v82 (by decide)).trans (out_endpoint m ρ c),
     (h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c),
     (h c main_arg4 (by decide)).trans (W3_main_arg4 m ρ c),
     (h c main_arg5 (by decide)).trans (W3_main_arg5 m ρ c),
     (h c main_arg6 (by decide)).trans (W3_main_arg6 m ρ c),
     (h c main_arg7 (by decide)).trans (W3_main_arg7 m ρ c),
     (h c main_arg8 (by decide)).trans (W3_main_arg8 m ρ c),
     (h c main_arg9 (by decide)).trans (W3_main_arg9 m ρ c),
     (h c main_arg10 (by decide)).trans (W3_main_arg10 m ρ c),
     (h c main_arg11 (by decide)).trans (W3_main_arg11 m ρ c),
     (h c main_arg12 (by decide)).trans (W3_main_arg12 m ρ c),
     (h c main_arg13 (by decide)).trans (W3_main_arg13 m ρ c)⟩)
    (RunOut.run_all m ρ)

end Cert.Sage.KernelValue

end
-- ==== Proof.RefValue.lean ====
/-
  The reference program's results are the two outputs, entry by entry.

  Each edge type's branch of the reference divides the destination's feature sums by the larger of its in-degree
  and one, applies the transposed weight, adds the bias and adds the destination's own features through the
  transposed root weight. The endpoint result is one such branch; up to the order of its three terms it is the
  endpoint output. The service result is the sum of two branches over the same destination features; the two root
  products join into one product with the sum of the two weights, which is where the entries of the features and
  of the two root weights have to be real numbers.
-/
import proofs.«134629_j74766790689426_2_alg».proof.Proof.Outputs
import Idealize.ShloMosaic.Lib.ValueLayout

noncomputable section

open scoped BigOperators

namespace Cert.Sage.RefValue

open Idealize.ShloMosaic Idealize.ShloMosaic.ValueIdx Cert.LibRealSums
open Cert.ReferenceIdeal Cert.ReferenceIdeal.Read Cert.Sage

/-- A feature sum divided by the larger of the in-degree and one is the feature sum times one over that divisor:
    the divisor is at least one, so it is not zero. -/
theorem scaled_eq (S c W : EReal) : Ideal.div S (max c 1) * W = (S * Ideal.div 1 (max c 1)) * W := by
  rw [mul_inv_eq_div _ _ (max_one_ne_zero c)]

/-- The host's quotient of two columns, read at an index. -/
theorem host_div_apply (x y : FVec Ideal S100000x1 .f32) (j : S100000x1.Idx) :
    Host.divf x y j = FloatOps.hostDivf (x j) (y j) := rfl

/-- The service output at an entry. -/
theorem svcOut_apply (x0 x1 : FVec Ideal S100000x128 .f32) (x2 x4 : IVec S2x300000 32) (x5 : FVec Ideal S128x128 .f32)
    (x6 : FVec Ideal S128 .f32) (x7 x11 : FVec Ideal S128x128 .f32) (x12 : FVec Ideal S128 .f32)
    (x13 : FVec Ideal S128x128 .f32) (h : S128.ShapeCasts S1x128) (r : Fin 100000) (q : Fin 128) :
    svcOut x0 x1 x2 x4 x5 x6 x7 x11 x12 x13 h (ix2 r q)
      = ((agg (val_main_v13 (F := Ideal) x0 x2) (invCalls x2) (val_main_v22 (F := Ideal) x5) r q
          + agg (val_main_v43 (F := Ideal) x1 x4) (invBelongs x4) (val_main_v52 (F := Ideal) x11) r q)
          + lin x0 (addf (val_main_v27 (F := Ideal) x7) (val_main_v57 (F := Ideal) x13) : FVec Ideal S128x128 .f32) r q)
        + (shapeCast S1x128 (addf x6 x12 : FVec Ideal S128 .f32) h : FVec Ideal S1x128 .f32) (ix2 (0 : Fin 1) q) := rfl

/-- The endpoint output at an entry. -/
theorem epOut_apply (x0 x1 : FVec Ideal S100000x128 .f32) (x3 : IVec S2x300000 32) (x8 : FVec Ideal S128x128 .f32)
    (x9 : FVec Ideal S128 .f32) (x10 : FVec Ideal S128x128 .f32) (h : S128.ShapeCasts S1x128) (r : Fin 100000) (q : Fin 128) :
    epOut x0 x1 x3 x8 x9 x10 h (ix2 r q)
      = (agg (val_main_v73 (F := Ideal) x0 x3) (invHas x3) (val_main_v82 (F := Ideal) x8) r q
          + lin x1 (val_main_v87 (F := Ideal) x10) r q)
        + (shapeCast S1x128 x9 h : FVec Ideal S1x128 .f32) (ix2 (0 : Fin 1) q) := rfl

/-- The "calls" edge type's branch of the reference at entry (r, q): the destination's feature sums divided by the
    larger of its in-degree and one, through the transposed weight, plus the bias, plus the destination features
    through the transposed root weight. Dividing by that divisor is multiplying by one over it. -/
theorem calls_entry (xd : FVec Ideal S100000x128 .f32) (e : IVec S2x300000 32) (wl : FVec Ideal S128x128 .f32)
    (b : FVec Ideal S128 .f32) (wr : FVec Ideal S128x128 .f32) (r : Fin 100000) (q : Fin 128) :
    val_main_v29 (F := Ideal) xd e wl b wr (ix2 r q)
      = (agg (val_main_v13 (F := Ideal) xd e) (invCalls e) (val_main_v22 (F := Ideal) wl) r q + b (ix1 q))
        + lin xd (val_main_v27 (F := Ideal) wr) r q := by
  rw [val_main_v29_apply, val_main_v26_apply, val_main_v23_apply, val_main_v28_apply, val_main_v25_apply, val_main_v24_apply]
  unfold agg lin invCalls
  refine congrArg₂ (· + ·) (congrArg₂ (· + ·) (Finset.sum_congr rfl fun k _ => ?_) ?_) (Finset.sum_congr rfl fun k _ => ?_)
  · rw [show lidx_main_v23 (ix2 r q) k = ix2 r k from funext fun a => Fin.ext (by match a with | ⟨0, _⟩ => rfl | ⟨1, _⟩ => rfl),
      show ridx_main_v23 (ix2 r q) k = ix2 k q from funext fun a => Fin.ext (by match a with | ⟨0, _⟩ => rfl | ⟨1, _⟩ => rfl),
      val_main_v21_apply, val_main_v20_apply,
      show idx_main_v20 (ix2 r k) = ix2 r (0 : Fin 1) from funext fun a => Fin.ext (by match a with | ⟨0, _⟩ => rfl | ⟨1, _⟩ => rfl)]
    rw [host_div_apply, val_main_v19_apply]
    simp only [Ideal.hostDivf_def, Ideal.maximumf_def]
    rw [show val_main_v18 (F := Ideal) (ix2 r (0 : Fin 1)) = 1 from (val_main_v18_apply _).trans ofBits_one]
    exact scaled_eq _ _ _
  · exact congrArg b (funext fun a => Fin.ext (by match a with | ⟨0, _⟩ => rfl))
  · rw [show lidx_main_v28 (ix2 r q) k = ix2 r k from funext fun a => Fin.ext (by match a with | ⟨0, _⟩ => rfl | ⟨1, _⟩ => rfl),
      show ridx_main_v28 (ix2 r q) k = ix2 k q from funext fun a => Fin.ext (by match a with | ⟨0, _⟩ => rfl | ⟨1, _⟩ => rfl)]

/-- The "belongs" edge type's branch of the reference at entry (r, q): the destination's feature sums divided by the
    larger of its in-degree and one, through the transposed weight, plus the bias, plus the destination features
    through the transposed root weight. Dividing by that divisor is multiplying by one over it. -/
theorem belongs_entry (xs xd : FVec Ideal S100000x128 .f32) (e : IVec S2x300000 32) (wl : FVec Ideal S128x128 .f32)
    (b : FVec Ideal S128 .f32) (wr : FVec Ideal S128x128 .f32) (r : Fin 100000) (q : Fin 128) :
    val_main_v59 (F := Ideal) xd xs e wl b wr (ix2 r q)
      = (agg (val_main_v43 (F := Ideal) xs e) (invBelongs e) (val_main_v52 (F := Ideal) wl) r q + b (ix1 q))
        + lin xd (val_main_v57 (F := Ideal) wr) r q := by
  rw [val_main_v59_apply, val_main_v56_apply, val_main_v53_apply, val_main_v58_apply, val_main_v55_apply, val_main_v54_apply]
  unfold agg lin invBelongs
  refine congrArg₂ (· + ·) (congrArg₂ (· + ·) (Finset.sum_congr rfl fun k _ => ?_) ?_) (Finset.sum_congr rfl fun k _ => ?_)
  · rw [show lidx_main_v53 (ix2 r q) k = ix2 r k from funext fun a => Fin.ext (by match a with | ⟨0, _⟩ => rfl | ⟨1, _⟩ => rfl),
      show ridx_main_v53 (ix2 r q) k = ix2 k q from funext fun a => Fin.ext (by match a with | ⟨0, _⟩ => rfl | ⟨1, _⟩ => rfl),
      val_main_v51_apply, val_main_v50_apply,
      show idx_main_v50 (ix2 r k) = ix2 r (0 : Fin 1) from funext fun a => Fin.ext (by match a with | ⟨0, _⟩ => rfl | ⟨1, _⟩ => rfl)]
    rw [host_div_apply, val_main_v49_apply]
    simp only [Ideal.hostDivf_def, Ideal.maximumf_def]
    rw [show val_main_v48 (F := Ideal) (ix2 r (0 : Fin 1)) = 1 from (val_main_v48_apply _).trans ofBits_one]
    exact scaled_eq _ _ _
  · exact congrArg b (funext fun a => Fin.ext (by match a with | ⟨0, _⟩ => rfl))
  · rw [show lidx_main_v58 (ix2 r q) k = ix2 r k from funext fun a => Fin.ext (by match a with | ⟨0, _⟩ => rfl | ⟨1, _⟩ => rfl),
      show ridx_main_v58 (ix2 r q) k = ix2 k q from funext fun a => Fin.ext (by match a with | ⟨0, _⟩ => rfl | ⟨1, _⟩ => rfl)]

/-- The "has" edge type's branch of the reference at entry (r, q): the destination's feature sums divided by the
    larger of its in-degree and one, through the transposed weight, plus the bias, plus the destination features
    through the transposed root weight. Dividing by that divisor is multiplying by one over it. -/
theorem has_entry (xs xd : FVec Ideal S100000x128 .f32) (e : IVec S2x300000 32) (wl : FVec Ideal S128x128 .f32)
    (b : FVec Ideal S128 .f32) (wr : FVec Ideal S128x128 .f32) (r : Fin 100000) (q : Fin 128) :
    val_main_v89 (F := Ideal) xs xd e wl b wr (ix2 r q)
      = (agg (val_main_v73 (F := Ideal) xs e) (invHas e) (val_main_v82 (F := Ideal) wl) r q + b (ix1 q))
        + lin xd (val_main_v87 (F := Ideal) wr) r q := by
  rw [val_main_v89_apply, val_main_v86_apply, val_main_v83_apply, val_main_v88_apply, val_main_v85_apply, val_main_v84_apply]
  unfold agg lin invHas
  refine congrArg₂ (· + ·) (congrArg₂ (· + ·) (Finset.sum_congr rfl fun k _ => ?_) ?_) (Finset.sum_congr rfl fun k _ => ?_)
  · rw [show lidx_main_v83 (ix2 r q) k = ix2 r k from funext fun a => Fin.ext (by match a with | ⟨0, _⟩ => rfl | ⟨1, _⟩ => rfl),
      show ridx_main_v83 (ix2 r q) k = ix2 k q from funext fun a => Fin.ext (by match a with | ⟨0, _⟩ => rfl | ⟨1, _⟩ => rfl),
      val_main_v81_apply, val_main_v80_apply,
      show idx_main_v80 (ix2 r k) = ix2 r (0 : Fin 1) from funext fun a => Fin.ext (by match a with | ⟨0, _⟩ => rfl | ⟨1, _⟩ => rfl)]
    rw [host_div_apply, val_main_v79_apply]
    simp only [Ideal.hostDivf_def, Ideal.maximumf_def]
    rw [show val_main_v78 (F := Ideal) (ix2 r (0 : Fin 1)) = 1 from (val_main_v78_apply _).trans ofBits_one]
    exact scaled_eq _ _ _
  · exact congrArg b (funext fun a => Fin.ext (by match a with | ⟨0, _⟩ => rfl))
  · rw [show lidx_main_v88 (ix2 r q) k = ix2 r k from funext fun a => Fin.ext (by match a with | ⟨0, _⟩ => rfl | ⟨1, _⟩ => rfl),
      show ridx_main_v88 (ix2 r q) k = ix2 k q from funext fun a => Fin.ext (by match a with | ⟨0, _⟩ => rfl | ⟨1, _⟩ => rfl)]

/-- The bias row of a kernel, a 128-vector laid as one row, read at (0, q). -/
theorem bias_row (v : FVec Ideal S128 .f32) (h : S128.ShapeCasts S1x128) (q : Fin 128) :
    shapeCast S1x128 v h (ix2 (0 : Fin 1) q) = v (ix1 q) :=
  shapeCast_a_1a_apply v h 0 q

/-- The reference's endpoint result is the endpoint output of the arguments. -/
theorem ref_ep (x0 x1 : FVec Ideal S100000x128 .f32) (x3 : IVec S2x300000 32) (x8 : FVec Ideal S128x128 .f32)
    (x9 : FVec Ideal S128 .f32) (x10 : FVec Ideal S128x128 .f32) (h : S128.ShapeCasts S1x128) :
    val_main_v89 (F := Ideal) x0 x1 x3 x8 x9 x10 = epOut x0 x1 x3 x8 x9 x10 h := by
  funext j
  obtain ⟨r, q, rfl⟩ : ∃ (r : Fin 100000) (q : Fin 128), j = ix2 r q := ⟨j 0, j 1, eq_ix2 j⟩
  rw [has_entry, epOut_apply, bias_row]
  exact add_right_comm _ _ _

/-- The reference's service result is the service output of the arguments, when the service features and the two
    root weights have real entries. -/
theorem ref_svc (x0 x1 : FVec Ideal S100000x128 .f32) (x2 x4 : IVec S2x300000 32) (x5 : FVec Ideal S128x128 .f32)
    (x6 : FVec Ideal S128 .f32) (x7 x11 : FVec Ideal S128x128 .f32) (x12 : FVec Ideal S128 .f32)
    (x13 : FVec Ideal S128x128 .f32) (h : S128.ShapeCasts S1x128)
    (h0 : ∀ i, IsReal (x0 i)) (h7 : ∀ i, IsReal (x7 i)) (h13 : ∀ i, IsReal (x13 i)) :
    val_main_v90 (F := Ideal) x0 x1 x2 x4 x5 x6 x7 x11 x12 x13 = svcOut x0 x1 x2 x4 x5 x6 x7 x11 x12 x13 h := by
  funext j
  obtain ⟨r, q, rfl⟩ : ∃ (r : Fin 100000) (q : Fin 128), j = ix2 r q := ⟨j 0, j 1, eq_ix2 j⟩
  rw [val_main_v90_apply, Ideal.addf_def, calls_entry, belongs_entry, svcOut_apply, bias_row]
  have hl : lin x0 (addf (val_main_v27 (F := Ideal) x7) (val_main_v57 (F := Ideal) x13) : FVec Ideal S128x128 .f32) r q
      = lin x0 (val_main_v27 (F := Ideal) x7) r q + lin x0 (val_main_v57 (F := Ideal) x13) r q := by
    unfold lin
    exact sum_mul_add (fun k => x0 (ix2 r k)) (fun k => val_main_v27 (F := Ideal) x7 (ix2 k q))
      (fun k => val_main_v57 (F := Ideal) x13 (ix2 k q)) (fun k => h0 _)
      (fun k => by rw [val_main_v27_apply]; exact h7 _) (fun k => by rw [val_main_v57_apply]; exact h13 _)
  rw [hl]
  show _ = _ + (x6 (ix1 q) + x12 (ix1 q))
  exact (six_terms _ _ _ _ _ _).symm

end Cert.Sage.RefValue

end
-- ==== Proof.Finite.lean ====
/-
  From the precondition to real entries.

  The precondition is the conjunction, over the eleven float arguments, of "every entry has absolute value below
  plus infinity". An extended real whose absolute value max(x, -x) is below plus infinity is neither infinity, so
  it is a real number. The conjunction is a chain of ten binary "and"s over one-bit words, and each conjunct is an
  "and" reduction over all entries of the comparison: it is one only if every entry's comparison is one.
  The layer's distributive law needs this of the service features and of the two weights applied to them.
-/
import proofs.«134629_j74766790689426_2_alg».proof.Pre_finite_inputs
import proofs.«134629_j74766790689426_2_alg».proof.Proof.LibRealSums
import Idealize.ShloMosaic.Lib.ReduceAll
import Idealize.ShloMosaic.Lib.ValueIdx
import Idealize.ShloMosaic.Lib.Affine

noncomputable section

namespace Cert.Sage.Finite

open Idealize.ShloMosaic Idealize.ShloMosaic.ValueIdx Cert.LibRealSums Cert.Pre_finite_inputs

/-- The single-precision pattern of plus infinity denotes the top element. -/
theorem ofBits_inf : Ideal.ofBits .f32 0x7F800000#32 = ⊤ := by simp [Ideal.ofBits, Ideal.ieee]

/-- An extended real whose absolute value is below plus infinity is a real number. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

instance : Subsingleton S_.Idx := ⟨fun a b => funext fun d => d.elim0⟩

/-- One conjunct: if the "and" over all entries of "|x| < +inf" is one, every entry of x is a real number. -/
theorem all_real {s : Shape} {axes : List (Fin s.rank)} (x inf : FVec Ideal s .f32)
    (hinf : ∀ i, inf i = Ideal.ofBits .f32 0x7F800000#32) (init : IVec S_ 1) (h : s.ReducesTo axes S_)
    (hu : 0 < S_.numel) (e : Host.reduce IntOp.andi (cmpf .olt (Host.absf x) inf) init h hu ix0 = 1#1) (i : s.Idx) :
    IsReal (x i) := by
  have hi := Host.reduce_andi_all _ init h hu ix0 e i
  refine isReal_of_abs_lt (x i) ?_
  rw [← hinf i]
  exact hi

variable [Cert.Pre_finite_inputs.Facts]

/-- Under the precondition the service features and the two weights applied to them have real entries. -/
theorem real_of_pre (a0 a1 : FVec Ideal S100000x128 .f32) (a2 a3 a4 : IVec S2x300000 32)
    (a5 : FVec Ideal S128x128 .f32) (a6 : FVec Ideal S128 .f32) (a7 a8 : FVec Ideal S128x128 .f32)
    (a9 : FVec Ideal S128 .f32) (a10 a11 : FVec Ideal S128x128 .f32) (a12 : FVec Ideal S128 .f32)
    (a13 : FVec Ideal S128x128 .f32)
    (h : fn (F := Ideal) a0 a1 a2 a3 a4 a5 a6 a7 a8 a9 a10 a11 a12 a13 = fun _ => 1#1) :
    (∀ i, IsReal (a0 i)) ∧ (∀ i, IsReal (a7 i)) ∧ (∀ i, IsReal (a13 i)) := by
  have h0 := congrFun h ix0
  dsimp only [fn, fn_part1, fn_part2, fn_part3] at h0
  obtain ⟨h48, h52⟩ := IntOp.andi_eq_one.1 h0
  obtain ⟨h43, h47⟩ := IntOp.andi_eq_one.1 h48
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => all_real a0 _ (fun _ => rfl) _ _ _ h3 i, fun i => all_real a7 _ (fun _ => rfl) _ _ _ h22 i,
    fun i => all_real a13 _ (fun _ => rfl) _ _ _ h52 i⟩

end Cert.Sage.Finite

end
-- ==== Proof.lean ====
/-
  A two-relation graph layer on service and endpoint nodes: for each edge type, the mean of the source features over
  a destination's incoming edges through one weight, plus the destination's own features through a root weight, plus
  a bias; a service node adds its two edge types.

  The kernel program computes the feature sums and the in-degree columns on the host, exactly as the reference does,
  and leaves the rest to two kernels over 4000-row blocks: multiply each row of sums by one over the larger of its
  in-degree and one, apply the transposed weights, add the node's own features through the (summed) root weight, add
  the (summed) bias. The reference divides where the kernel multiplies by the reciprocal, and adds two root
  products where the kernel adds the two root weights first. On the extended reals the first is the same number
  whatever the sums are, because the divisor is at least one; the second is the distributive law, which holds because
  the precondition makes the service features and the root weights real.

  The three frames: the two kernel programs by their generated frame proofs, the reference by its generated run.
  No operation was rewritten when the kernel program was idealized, so there is nothing to preserve.
-/
import proofs.«134629_j74766790689426_2_alg».proof.Defs
import proofs.«134629_j74766790689426_2_alg».proof.Proof.Gen.Kernel
import proofs.«134629_j74766790689426_2_alg».proof.Proof.Gen.Kernel.Skeleton
import proofs.«134629_j74766790689426_2_alg».proof.Proof.Gen.Kernel.Launch
import proofs.«134629_j74766790689426_2_alg».proof.Proof.Gen.Kernel.Points
import proofs.«134629_j74766790689426_2_alg».proof.Proof.Gen.Kernel.Frame
import proofs.«134629_j74766790689426_2_alg».proof.Proof.Gen.KernelIdeal
import proofs.«134629_j74766790689426_2_alg».proof.Proof.Gen.KernelIdeal.Skeleton
import proofs.«134629_j74766790689426_2_alg».proof.Proof.Gen.KernelIdeal.Launch
import proofs.«134629_j74766790689426_2_alg».proof.Proof.Gen.KernelIdeal.Points
import proofs.«134629_j74766790689426_2_alg».proof.Proof.Gen.KernelIdeal.Frame
import proofs.«134629_j74766790689426_2_alg».proof.Proof.Gen.ReferenceIdeal
import proofs.«134629_j74766790689426_2_alg».proof.Proof.Gen.ReferenceIdeal.Run
import proofs.«134629_j74766790689426_2_alg».proof.Proof.Gen.ReferenceIdeal.Read
import proofs.«134629_j74766790689426_2_alg».proof.Proof.Gen.Pre_finite_inputs
import proofs.«134629_j74766790689426_2_alg».proof.Proof.KernelValue
import proofs.«134629_j74766790689426_2_alg».proof.Proof.RefValue
import proofs.«134629_j74766790689426_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the service output and the endpoint output of the arguments. -/
theorem algebraic : Cert.algebraic_KernelIdeal_ReferenceIdeal := by
  intro m ρ m' ρ' hpre hagree
  refine ⟨fun c => Cert.Sage.svcOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) Cert.KernelIdeal.Gen.shapeCasts_S128_S1x128,
    fun c => Cert.Sage.epOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) Cert.KernelIdeal.Gen.shapeCasts_S128_S1x128,
    Cert.Sage.KernelValue.run m ρ, ?_⟩
  refine (θ_run Cert.ReferenceIdeal.defs _ _).mono (fun r h c => ?_) (Cert.ReferenceIdeal.Value.run (F := Ideal) m' ρ')
  obtain ⟨h0, h1, hargs⟩ := h c
  obtain ⟨g0, g1, g2, g3, g4, g5, g6, g7, g8, g9, g10, g11, g12, g13⟩ := hagree c
  obtain ⟨r0, r7, r13⟩ := Cert.Sage.Finite.real_of_pre _ _ _ _ _ _ _ _ _ _ _ _ _ _ (hpre c)
  refine ⟨?_, ?_, hargs⟩
  · rw [h0, Cert.ReferenceIdeal.Read.val_main_v90_eq, g0, g1, g2, g4, g5, g6, g7, g11, g12, g13]
    exact Cert.Sage.RefValue.ref_svc _ _ _ _ _ _ _ _ _ _ _ r0 r7 r13
  · refine h1.trans ((Cert.ReferenceIdeal.Read.val_main_v89_eq _ _ _ _ _ _).trans ?_)
    rw [g0, g1, g3, g8, g9, g10]
    exact Cert.Sage.RefValue.ref_ep _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
